-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S1600000 : Shape := ⟨1, ![1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  main_v18

def fn {F : FTy → Type} [FloatOps F] (main_arg0 : FVec F S100000x512 .f32) (main_arg1 : FVec F S512x128 .f32) (main_arg2 : FVec F S128 .f32) (main_arg3 : FVec F S1600000 .f32) (main_arg4 : IVec S1600000 32) (main_arg5 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg3
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_v13 main_v16
-- ==== Kernel.lean ====
abbrev S100000x512 : Shape := ⟨2, ![100000, 512]⟩
abbrev S512x128 : Shape := ⟨2, ![512, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x512 : Shape := ⟨2, ![4000, 512]⟩
abbrev S4000x1 : Shape := ⟨2, ![4000, 1]⟩
abbrev S4000x128 : Shape := ⟨2, ![4000, 128]⟩
abbrev S1600000x128 : Shape := ⟨2, ![1600000, 128]⟩
abbrev S1x128 : Shape := ⟨2, ![1, 128]⟩

abbrev nBuf : Space → Nat
  | .hbm => 49
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S512x128, .bf16⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .local _ .vmem, ⟨0, _⟩ => ⟨S4000x512, .f32⟩
  | .local _ .vmem, ⟨1, _⟩ => ⟨S4000x512, .f32⟩
  | .local _ .vmem, ⟨2, _⟩ => ⟨S4000x1, .f32⟩
  | .local _ .vmem, ⟨3, _⟩ => ⟨S4000x1, .f32⟩
  | .local _ .vmem, ⟨4, _⟩ => ⟨S512x128, .bf16⟩
  | .local _ .vmem, ⟨5, _⟩ => ⟨S4000x128, .f32⟩
  | .local _ .vmem, ⟨6, _⟩ => ⟨S4000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x512 : S4000x1.Broadcasts S4000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S4000x512_S512x128_S4000x128_1_0_0_1_n_n_wf : DotDims.WF S4000x512 S512x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S1600000, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x512, .f32⟩
  | .hbm, ⟨25, _⟩ => ⟨S100000x512, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.BlockProduct.lean ====
/-
  One block of the kernel: what the body stores, read at an index.

  The body loads a block `x0` of 4000 feature rows (4000 × 512), the matching 4000 scales `x1` (4000 × 1)
  and the whole weight matrix `x2` (512 × 128), multiplies every feature row by its scale (the scale
  column broadcast along the 512 channels), and contracts the result with the weights into a zero
  accumulator. At the ideal values the narrowing of the product to bf16 is the identity and the matrix
  product into zero is the plain sum over the contraction axis, so entry (p, q) of what is stored is

      Σ_k (x0[p, k] · x1[p, 0]) · x2[k, q].
-/
import proofs.«165281_j44298292691098_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The scale column broadcast along the channels reads, at (p, k), the scale of row `p`. -/
theorem scale_at (x1 : Vec Ideal S4000x1 .f32) (p : Fin 4000) (k : Fin 512) :
    broadcastTo S4000x512 x1 Facts₀.broadcasts_S4000x1_S4000x512 (ix2 p k) = x1 (ix2 p (0 : Fin 1)) := by
  exact broadcastTo_apply x1 Facts₀.broadcasts_S4000x1_S4000x512 (ix2 p k) (ix2 p (0 : Fin 1)) (fun a => match a with
    | ⟨0, _⟩ => by show p.val = if (4000 : Nat) = 1 then 0 else p.val; rw [if_neg (by decide)]
    | ⟨1, _⟩ => by show (0 : Nat) = if (1 : Nat) = 1 then 0 else k.val; rw [if_pos rfl])

/-- The contraction's left operand index at output (p, q) and channel `k` is (p, k). -/
theorem lhs_at (p : Fin 4000) (q : Fin 128) (k : Fin 512) :
    dot_S4000x512_S512x128_S4000x128_1_0_0_1_n_n.lhsIdx (ix2 p q)
        ((contrEquiv1 dot_S4000x512_S512x128_S4000x128_1_0_0_1_n_n 512 rfl rfl).symm k) = ix2 p k :=
  funext fun a => Fin.ext (by
    have hk := contrEquiv1_symm_val dot_S4000x512_S512x128_S4000x128_1_0_0_1_n_n 512 rfl rfl k
    match a with
    | ⟨0, _⟩ =>
      show (dot_S4000x512_S512x128_S4000x128_1_0_0_1_n_n.lhsIdx (ix2 p q) _ 0).val = p.val
      unfold DotDims.lhsIdx
      rw [dif_neg (show ¬(0 : Fin S4000x512.rank) ∈ dot_S4000x512_S512x128_S4000x128_1_0_0_1_n_n.lhsBatch by decide),
        dif_pos (show (0 : Fin S4000x512.rank) ∈ dot_S4000x512_S512x128_S4000x128_1_0_0_1_n_n.lhsNonContracting by decide)]
      rfl
    | ⟨1, _⟩ => exact (dot_S4000x512_S512x128_S4000x128_1_0_0_1_n_n.lhsIdx_val_of_single rfl (ix2 p q) _).trans hk)

/-- The contraction's right operand index at output (p, q) and channel `k` is (k, q). -/
theorem rhs_at (p : Fin 4000) (q : Fin 128) (k : Fin 512) :
    dot_S4000x512_S512x128_S4000x128_1_0_0_1_n_n.rhsIdx (ix2 p q)
        ((contrEquiv1 dot_S4000x512_S512x128_S4000x128_1_0_0_1_n_n 512 rfl rfl).symm k) = ix2 k q :=
  funext fun a => Fin.ext (by
    have hk := contrEquiv1_symm_val dot_S4000x512_S512x128_S4000x128_1_0_0_1_n_n 512 rfl rfl k
    match a with
    | ⟨0, _⟩ => exact (dot_S4000x512_S512x128_S4000x128_1_0_0_1_n_n.rhsIdx_val_of_single rfl (ix2 p q) _).trans hk
    | ⟨1, _⟩ =>
      show (dot_S4000x512_S512x128_S4000x128_1_0_0_1_n_n.rhsIdx (ix2 p q) _ 1).val = q.val
      unfold DotDims.rhsIdx
      rw [dif_neg (show ¬(1 : Fin S512x128.rank) ∈ dot_S4000x512_S512x128_S4000x128_1_0_0_1_n_n.rhsBatch by decide),
        dif_pos (show (1 : Fin S512x128.rank) ∈ dot_S4000x512_S512x128_S4000x128_1_0_0_1_n_n.rhsNonContracting by decide)]
      rfl)

/-- What the body stores, at (p, q): the scaled row `p` of the feature block against column `q` of the weights. -/
theorem stored_at (x0 : Vec Ideal S4000x512 .f32) (x1 : Vec Ideal S4000x1 .f32) (x2 : Vec Ideal S512x128 .bf16)
    (p : Fin 4000) (q : Fin 128) :
    k0_pay1 (F := Ideal) x0 x1 x2 (ix2 p q)
      = ∑ k : Fin 512, (x0 (ix2 p k) * x1 (ix2 p (0 : Fin 1))) * x2 (ix2 k q) := by
  unfold k0_pay1
  simp only [matmul]
  rw [Ideal.matmul_constant_zero_apply,
    ← Equiv.sum_comp (contrEquiv1 dot_S4000x512_S512x128_S4000x128_1_0_0_1_n_n 512 rfl rfl).symm]
  refine Finset.sum_congr rfl fun k _ => ?_
  rw [lhs_at p q k, rhs_at p q k, shapeCast_self, shapeCast_self]
  show (x0 (ix2 p k) * broadcastTo S4000x512 x1 Facts₀.broadcasts_S4000x1_S4000x512 (ix2 p k)) * x2 (ix2 k q) = _
  rw [scale_at x1 p k]

end Cert.KernelIdeal.BlockProduct

end
-- ==== Proof.Projection.lean ====
/-
  The dense stage of the graph convolution, as ONE function of whole arrays.

  For a feature matrix `x` (100000 × 512), a column `s` holding one scale per node (100000 × 1) and a
  weight matrix `w` (512 × 128), the projected feature of node `r` in output channel `c` is

      project x s w (r, c) = Σ_k (x[r, k] · s[r, 0]) · w[k, c],     k over the 512 input channels:

  row `r` of `x` is scaled by the node's own factor first, and the scaled row is then contracted with
  column `c` of `w`. Entry (r, c) depends on row `r` of `x`, on the single entry `s[r, 0]` and on column
  `c` of `w`, and on nothing else — which is why the rows can be computed in independent blocks. Both
  programs multiply in this order (scale, then contract), so no law of the extended reals beyond the
  definition of a matrix product is needed to identify them, and in particular nothing about finiteness.
-/
import Idealize.ShloMosaic.PureOps.Ideal
import Idealize.ShloMosaic.Lib.ValueIdx

noncomputable section

namespace Cert.Projection

open Idealize.ShloMosaic Idealize.ShloMosaic.ValueIdx

/-- The projected feature of node `r` in channel `c`: the node's scaled feature row against column `c` of the weights. -/
def entry (x : (⟨2, ![100000, 512]⟩ : Shape).Idx → EReal) (s : (⟨2, ![100000, 1]⟩ : Shape).Idx → EReal)
    (w : (⟨2, ![512, 128]⟩ : Shape).Idx → EReal) (r : Fin 100000) (c : Fin 128) : EReal :=
  ∑ k : Fin 512, (x (ix2 r k) * s (ix2 r (0 : Fin 1))) * w (ix2 k c)

/-- The whole projected array, index by index. -/
def project (x : (⟨2, ![100000, 512]⟩ : Shape).Idx → EReal) (s : (⟨2, ![100000, 1]⟩ : Shape).Idx → EReal)
    (w : (⟨2, ![512, 128]⟩ : Shape).Idx → EReal) : (⟨2, ![100000, 128]⟩ : Shape).Idx → EReal :=
  fun i => entry x s w (i 0) (i 1)

/-- At an index given by its two coordinates. -/
theorem project_ix2 (x : (⟨2, ![100000, 512]⟩ : Shape).Idx → EReal) (s : (⟨2, ![100000, 1]⟩ : Shape).Idx → EReal)
    (w : (⟨2, ![512, 128]⟩ : Shape).Idx → EReal) (r : Fin 100000) (c : Fin 128) :
    project x s w (ix2 r c) = entry x s w r c := rfl

end Cert.Projection

end
-- ==== Proof.Blocks.lean ====
/-
  From blocks to the array: after the kernel's 25 grid points the projected array is `project`.

  Grid point `t` handles the 4000 nodes 4000·t … 4000·t + 3999: it reads those rows of the features and of
  the scale column and the whole weight matrix, and writes back the 4000 × 128 block of rows of the result.
  What it writes is the block product of BlockProduct.lean, and an entry of a block depends only on the
  node's own feature row and scale, so block `t` of what is written IS block `t` of the whole-array
  function `project` of the arrays as the region finds them. The 25 row blocks are disjoint and fill the
  100000 rows (row `r` lies in block `r / 4000`), so once every point has written back, the array is
  `project` everywhere.
-/
import proofs.«165281_j44298292691098_1_alg».proof.Proof.Gen.KernelIdeal.Frame
import proofs.«165281_j44298292691098_1_alg».proof.Proof.BlockProduct
import proofs.«165281_j44298292691098_1_alg».proof.Proof.Projection
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- One entry of a stored block is the matching entry of `project`, for ANY block of feature rows `x0`, scales `x1` and
    weights `x2` that are the rows `4000·b …` of arrays `X`, `S` and the whole of `W`: entry `j` of the block sits at
    array index `i` with `i₀ = 4000·b + j₀` and `i₁ = j₁`. -/
theorem stored_is_project (x0 : Vec Ideal S4000x512 .f32) (x1 : Vec Ideal S4000x1 .f32) (x2 : Vec Ideal S512x128 .bf16)
    (X : S100000x512.Idx → EReal) (S : S100000x1.Idx → EReal) (W : S512x128.Idx → EReal)
    (j : S4000x128.Idx) (i : S100000x128.Idx) (b : Nat)
    (hi0 : (i 0).val = b * 4000 + (j 0).val) (hi1 : (i 1).val = (j 1).val)
    (h0 : ∀ (y : S4000x512.Idx) (z : S100000x512.Idx), (z 0).val = b * 4000 + (y 0).val → (z 1).val = (y 1).val → x0 y = X z)
    (h1 : ∀ (y : S4000x1.Idx) (z : S100000x1.Idx), (z 0).val = b * 4000 + (y 0).val → x1 y = S z)
    (h2 : ∀ y : S512x128.Idx, x2 y = W y) :
    k0_pay1 (F := Ideal) x0 x1 x2 j = Projection.project X S W i := by
  obtain ⟨p, q, rfl⟩ : ∃ (p : Fin 4000) (q : Fin 128), j = ix2 p q := ⟨j 0, j 1, eq_ix2 j⟩
  obtain ⟨r, c, rfl⟩ : ∃ (r : Fin 100000) (c : Fin 128), i = ix2 r c := ⟨i 0, i 1, eq_ix2 i⟩
  have hr : r.val = b * 4000 + p.val := hi0
  have hc : c = q := Fin.ext hi1
  subst hc
  rw [BlockProduct.stored_at, Projection.project_ix2]
  unfold Projection.entry
  refine Finset.sum_congr rfl fun k _ => ?_
  rw [h0 (ix2 p k) (ix2 r k) hr rfl, h1 (ix2 p (0 : Fin 1)) (ix2 r (0 : Fin 1)) hr, h2 (ix2 k c)]

/- From here on the payload and the specification are compared only as whole terms: nothing below needs their sums opened. -/
attribute [local irreducible] Gen.k0_pay1 Projection.project Projection.entry

/-- The printed index maps, decided over the 25 points: the feature and scale windows move with the output's row block,
    every column block index is 0, the weights' block never moves, and the output's row block is at most 24. -/
theorem index_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 24 :=
  (by decide +kernel : ∀ t : Fin grid0.N, _)

/-- Every one of the 25 row blocks is some point's. -/
theorem index_onto : ∀ q0 : Fin 25, ∃ t : Fin cfg0.N, win0_3.index t = ![q0.val, 0] :=
  (by decide +kernel : ∀ q0 : Fin 25, ∃ t : Fin grid0.N, win0_3.index t = ![q0.val, 0])

/-- ONE ENTRY of what point `t` writes back, for ARBITRARY arrays `X`, `S`, `W` read through the three input windows' blocks:
    entry `j` of the stored block is the entry of `project X S W` under it. Point `t`'s feature and scale blocks are rows
    `4000·b …` with `b` the output's row block, and the weights' block is the whole matrix, so `stored_is_project` applies. -/
theorem written_entry (X : S100000x512.Idx → EReal) (S : S100000x1.Idx → EReal) (W : S512x128.Idx → EReal)
    (t : Fin cfg0.N) (j : ((win0 3).xblock (grid0.coords t)).Idx) :
    k0_pay1 (F := Ideal) (((cfg0.win 0).blk t).view.read (Elt Ideal) X) (((cfg0.win 1).blk t).view.read (Elt Ideal) S)
        (((cfg0.win 2).blk t).view.read (Elt Ideal) W) ((win0 3).xinj (grid0.coords t) j)
      = Projection.project X S W (((cfg0.win 3).blk t).view.emb j) := by
  obtain ⟨e00, e01, e10, e11, e20, e21, e31, e30⟩ := index_facts t
  refine stored_is_project _ _ _ X S W ((win0 3).xinj (grid0.coords t) j) (((cfg0.win 3).blk t).view.emb j)
    (win0_3.index t (0 : Fin 2)) ?_ ?_ ?_ ?_ ?_
  · show win0_3.index t (0 : Fin 2) * 4000 + 1 * (j 0).val = win0_3.index t (0 : Fin 2) * 4000 + (j 0).val
    omega
  · show win0_3.index t (1 : Fin 2) * 128 + 1 * (j 1).val = (j 1).val
    omega
  · intro y z hz0 hz1
    show X (((cfg0.win 0).blk t).view.emb y) = X z
    refine congrArg X (funext fun a => Fin.ext ?_)
    match a with
    | ⟨0, _⟩ => show win0_0.index t (0 : Fin 2) * 4000 + 1 * (y 0).val = (z 0).val; omega
    | ⟨1, _⟩ => show win0_0.index t (1 : Fin 2) * 512 + 1 * (y 1).val = (z 1).val; omega
  · intro y z hz0
    show S (((cfg0.win 1).blk t).view.emb y) = S z
    refine congrArg S (funext fun a => Fin.ext ?_)
    match a with
    | ⟨0, _⟩ => show win0_1.index t (0 : Fin 2) * 4000 + 1 * (y 0).val = (z 0).val; omega
    | ⟨1, _⟩ =>
      show win0_1.index t (1 : Fin 2) * 1 + 1 * (y 1).val = (z 1).val
      have hy : (y 1).val < 1 := (y 1).isLt
      have hz : (z 1).val < 1 := (z 1).isLt
      omega
  · intro y
    show W (((cfg0.win 2).blk t).view.emb y) = W y
    refine congrArg W (funext fun a => Fin.ext ?_)
    match a with
    | ⟨0, _⟩ => show win0_2.index t (0 : Fin 2) * 512 + 1 * (y 0).val = (y 0).val; omega
    | ⟨1, _⟩ => show win0_2.index t (1 : Fin 2) * 128 + 1 * (y 1).val = (y 1).val; omega

/-- THE WHOLE BLOCK point `t` writes back, for arbitrary arrays: block `t` of `project X S W`. -/
theorem written_block (X : S100000x512.Idx → EReal) (S : S100000x1.Idx → EReal) (W : S512x128.Idx → EReal) (t : Fin cfg0.N) :
    (cfg0.win 3).cut (grid0.coords t)
        (k0_pay1 (F := Ideal) (((cfg0.win 0).blk t).view.read (Elt Ideal) X) (((cfg0.win 1).blk t).view.read (Elt Ideal) S)
          (((cfg0.win 2).blk t).view.read (Elt Ideal) W))
      = ((cfg0.win 3).blk t).view.read (Elt Ideal) (Projection.project X S W) :=
  funext fun j => by
    show _ = Projection.project X S W (((cfg0.win 3).blk t).view.emb j)
    exact written_entry X S W t j

/- The arrays the region finds are folds over the host operations before it: from here on they are never opened. -/
attribute [local irreducible] Idealize.ShloMosaic.StableHlo.after

/-- WHAT POINT `t` WRITES BACK is block `t` of `project` of the arrays as the region finds them. -/
theorem flushed_eq (c : Dev nD) (t : Fin cfg0.N) :
    (dats m 0 c).flushed 3 t
      = ((cfg0.win 3).blk t).view.read (Elt Ideal)
          (Projection.project (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero origin]
  simp only [View.ld_unit_zero (S := S4000x512) origin, View.ld_unit_zero (S := S4000x1) origin,
    View.ld_unit_zero (S := S512x128) origin]
  unfold iblk
  exact written_block (V m c (Pipeline.arrRef spec0 0)) (V m c (Pipeline.arrRef spec0 1)) (V m c (Pipeline.arrRef spec0 2)) t

/-- An index of the array is in point `t`'s block iff each coordinate is in the block's range on its axis. -/
theorem mem_blk (t : Fin cfg0.N) (i : S100000x128.Idx) :
    i ∈ ((cfg0.win 3).blk t).view.set
      ↔ ∀ a : Fin 2, win0_3.index t a * S4000x128.size a ≤ (i a).val ∧ (i a).val < win0_3.index t a * S4000x128.size a + S4000x128.size a := by
  show i ∈ ((View.whole main_v14).slice (win0_3.rect t)).set ↔ _
  rw [View.set_slice_whole, Rect.mem_set_unit]
  exact Iff.rfl

/-- THE COVER: every index of the array lies in the block of the point that handles its row. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- THE ARRAY after the region: `project` of the arrays as the region finds them. -/
theorem final (c : Dev nD) :
    (dats m 0 c).arrAt 3 cfg0.N
      = Projection.project (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.Blocks

end
-- ==== Proof.Aggregation.lean ====
/-
  The graph stages that both programs spell with the same operations, each as ONE function.

  `degree idx` : for every node, the number of edges whose endpoint listed in `idx` is that node (a
  scatter-add of ones into zeros), clamped below by one.  Taken at the source endpoints it is the
  out-degree, at the destination endpoints the in-degree.

  `scaleColumn src` : the out-degrees' inverse square roots, laid out as a 100000 × 1 column — the
  per-node scale the dense stage multiplies the feature rows by.

  `aggregate h bias ew src dst` : message passing on the projected features `h`.  Every edge `e` takes the
  row of `h` at its source node (a negative source index is first shifted up by the node count, as array
  indexing does), multiplies it by the edge's weight `ew[e]`, and adds it into the row of its
  destination node; each node's sum is then multiplied by the inverse square root of its in-degree, and
  the bias is added along the channels.

  Nothing in this file is ever unfolded by the proof: the two programs apply these same operations to
  the same arguments, so it is enough to show that the projected features going IN are equal.
-/
import proofs.«165281_j44298292691098_1_alg».proof.Proof.Gen.KernelIdeal
import Idealize.ShloMosaic.PureOps.Ideal

noncomputable section

namespace Cert.KernelIdeal.Aggregation

open Cert.KernelIdeal Idealize.ShloMosaic

/-- Each node's number of incident edge endpoints in `idx`, at least one. -/
def degree (idx : IVec S1600000 32) : FVec Ideal S100000 .f32 :=
  maximumf (F := Ideal)
    (Host.scatterAdd (F := Ideal) scatter_S100000_S1600000x1_S1600000_n_0_0_1
      (broadcastInDim S100000 ![] Facts₀.bcast_S_S100000 (constant (F := Ideal) S_ .f32 0x00000000#32))
      (broadcastInDim S1600000x1 ![0] Facts₀.bcast_S1600000_S1600000x1_0 idx)
      (broadcastInDim S1600000 ![] Facts₀.bcast_S_S1600000 (constant (F := Ideal) S_ .f32 0x3F800000#32)))
    (broadcastInDim S100000 ![] Facts₀.bcast_S_S100000 (constant (F := Ideal) S_ .f32 0x3F800000#32))

/-- The inverse square roots of the degrees, one per node. -/
def invSqrtDegree (idx : IVec S1600000 32) : FVec Ideal S100000 .f32 :=
  Host.rsqrt (F := Ideal) (degree idx)

/-- The same as a column: entry (r, 0) is node `r`'s. -/
def scaleColumn (src : IVec S1600000 32) : FVec Ideal S100000x1 .f32 :=
  shapeCast S100000x1 (invSqrtDegree src) Facts₀.shapeCasts_S100000_S100000x1

/-- Message passing over the edges on projected features `h`, normalised by the in-degrees, plus the bias. -/
def aggregate (h : FVec Ideal S100000x128 .f32) (bias : FVec Ideal S128 .f32) (ew : FVec Ideal S1600000 .f32)
    (src dst : IVec S1600000 32) : FVec Ideal S100000x128 .f32 :=
  addf (F := Ideal)
    (mulf (F := Ideal)
      (Host.scatterAdd (F := Ideal) scatter_S100000x128_S1600000x1_S1600000x128_1_0_0_1
        (broadcastInDim S100000x128 ![] Facts₀.bcast_S_S100000x128 (constant (F := Ideal) S_ .f32 0x00000000#32))
        (broadcastInDim S1600000x1 ![0] Facts₀.bcast_S1600000_S1600000x1_0 dst)
        (mulf (F := Ideal)
          (Host.gather gather_S100000x128_S1600000x1_S1600000x128_1_0_n_n_0_1_1128 h
            (broadcastInDim S1600000x1 ![0] Facts₀.bcast_S1600000_S1600000x1_0
              (select (cmpi .slt src (broadcastInDim S1600000 ![] Facts₀.bcast_S_S1600000 (constantI S_ 32 0#32)))
                (addi src (broadcastInDim S1600000 ![] Facts₀.bcast_S_S1600000 (constantI S_ 32 100000#32)))
                src)))
          (broadcastInDim S1600000x128 ![0, 1] Facts₀.bcast_S1600000x1_S1600000x128_0_1
            (broadcastInDim S1600000x1 ![0] Facts₀.bcast_S1600000_S1600000x1_0 ew))))
      (broadcastInDim S100000x128 ![0, 1] Facts₀.bcast_S100000x1_S100000x128_0_1
        (broadcastInDim S100000x1 ![0] Facts₀.bcast_S100000_S100000x1_0 (invSqrtDegree dst))))
    (broadcastInDim S100000x128 ![0, 1] Facts₀.bcast_S1x128_S100000x128_0_1
      (broadcastInDim S1x128 ![1] Facts₀.bcast_S128_S1x128_1 bias))

end Cert.KernelIdeal.Aggregation

end
-- ==== Proof.KernelResult.lean ====
/-
  The kernel's result array, as `aggregate` of `project` of the argument arrays.

  Before the region the host computes three things the proof needs by value: the scale column (the
  out-degrees' inverse square roots as a 100000 × 1 column), the weights narrowed to bf16 (the same
  extended reals: narrowing is the identity at the ideal values) and the in-degrees. The region leaves the
  projected array at `project` of the features, that column and those weights (Blocks.lean). After the
  region the host runs the message passing; it reads the projected array, the in-degrees and four of the
  arguments, all of which hold what is stated here, so its result is `aggregate` of them.
-/
import proofs.«165281_j44298292691098_1_alg».proof.Proof.Gen.KernelIdeal.Frame
import proofs.«165281_j44298292691098_1_alg».proof.Proof.Blocks
import proofs.«165281_j44298292691098_1_alg».proof.Proof.Aggregation
import Idealize.ShloMosaic.Lib.StableHlo.Run
import Idealize.ShloMosaic.Lib.Pipeline.Value

set_option maxRecDepth 16384

noncomputable section

namespace Cert.KernelIdeal.KernelResult

open Cert.KernelIdeal Cert.KernelIdeal.Gen Idealize.ShloMosaic Idealize.ShloMosaic.TcCoe Idealize.SL.Sem
open Idealize.ShloMosaic.StableHlo
open Idealize.ShloMosaic.Pipeline (Dat)
open Cert.KernelIdeal.Aggregation

variable (m : (ℓ : Loc nD τ sig) → Buf (Elt Ideal) ℓ) (ρ : Dev nD → PrngReg)

/-! ## What the region finds -/

/-- The scale column at region entry: the inverse square roots of the out-degrees, as a column. -/
theorem entry_scale (c : Dev nD) :
    (V m c main_v12 : S100000x1.Idx → EReal) = scaleColumn (m ((c : Thread nD τ).loc main_arg4)) := by
  show StableHlo.after hostOps0 (fun b => m (c, b)) (Proc.devRef .tc main_v12) = _
  after_results
  rfl

/-- The weights at region entry: the argument, narrowed — the same extended reals. -/
theorem entry_weights (c : Dev nD) :
    (V m c main_v13 : S512x128.Idx → EReal) = m ((c : Thread nD τ).loc main_arg1) := by
  show StableHlo.after hostOps0 (fun b => m (c, b)) (Proc.devRef .tc main_v13) = _
  after_results
  rfl

/-- The in-degrees, computed before the region and read after it. -/
theorem entry_indegree (c : Dev nD) :
    (V m c main_v10 : S100000.Idx → EReal) = degree (m ((c : Thread nD τ).loc main_arg5)) := by
  show StableHlo.after hostOps0 (fun b => m (c, b)) (Proc.devRef .tc main_v10) = _
  after_results
  rfl

/-! ## What the host finds after the region -/

/-- The projected array. -/
theorem exit_projected (c : Dev nD) :
    Pipeline.withArrays (cfgs 0).spec c (V0 m c) (fun w => (dats m 0 c).arrAt w (cfgs 0).N) (Proc.devRef .tc main_v14)
      = Projection.project (m ((c : Thread nD τ).loc main_arg0)) (scaleColumn (m ((c : Thread nD τ).loc main_arg4)))
          (m ((c : Thread nD τ).loc main_arg1)) := by
  refine (Pipeline.withArrays_arr spec0 launch0.win.arr_inj c _ _ 3).trans ?_
  refine (Blocks.final m c).trans ?_
  have h0 : V m c (Pipeline.arrRef spec0 0) = m ((c : Thread nD τ).loc main_arg0) := V_main_arg0 m c
  have h1 : (V m c (Pipeline.arrRef spec0 1) : S100000x1.Idx → EReal) = scaleColumn (m ((c : Thread nD τ).loc main_arg4)) :=
    entry_scale m c
  have h2 : (V m c (Pipeline.arrRef spec0 2) : S512x128.Idx → EReal) = m ((c : Thread nD τ).loc main_arg1) :=
    entry_weights m c
  rw [h0, h1, h2]

/-- The in-degrees. -/
theorem exit_indegree (c : Dev nD) :
    Pipeline.withArrays (cfgs 0).spec c (V0 m c) (fun w => (dats m 0 c).arrAt w (cfgs 0).N) (Proc.devRef .tc main_v10)
      = degree (m ((c : Thread nD τ).loc main_arg5)) :=
  (Pipeline.withArrays_of_ne _ c (V0 m c) _ main_v10 (by exact (by decide : ∀ w, Pipeline.arrRef spec0 w ≠ main_v10))).trans
    (entry_indegree m c)

/-- The bias, -/
theorem exit_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- the edge weights, -/
theorem exit_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- the edges' source nodes, -/
theorem exit_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)

/-- and their destination nodes: each as launched. -/
theorem exit_arg5 (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans
    (V_main_arg5 m c)

/-! ## The result -/

/-- The kernel's result, as a function of the argument arrays. -/
def result (c : Dev nD) : FVec Ideal S100000x128 .f32 :=
  aggregate
    (Projection.project (m ((c : Thread nD τ).loc main_arg0)) (scaleColumn (m ((c : Thread nD τ).loc main_arg4)))
      (m ((c : Thread nD τ).loc main_arg1)))
    (m ((c : Thread nD τ).loc main_arg2)) (m ((c : Thread nD τ).loc main_arg3))
    (m ((c : Thread nD τ).loc main_arg4)) (m ((c : Thread nD τ).loc main_arg5))

set_option maxHeartbeats 4000000 in
/-- The host operations after the region end at `result`. -/
theorem tail_eq (c : Dev nD) :
    (Pipeline.afterTail₀ cfgs (dats m) 0 (V0 m) [hostOps1] c main_v34 : S100000x128.Idx → EReal) = result m c := by
  unfold Pipeline.afterTail₀
  show StableHlo.after hostOps1 _ (Proc.devRef .tc main_v34) = _
  after_results
  rw [exit_projected m c, exit_indegree m c, exit_arg2 m c, exit_arg3 m c, exit_arg4 m c, exit_arg5 m c]
  rfl

/-- THE RUN: every weakly fair execution of the kernel's program terminates with the result array at `result` and the
    arguments unchanged. -/
theorem run : θ_run defs (onTc (τ := τ) (main (F := Ideal))) ⟨m, fun _ => 0, ρ⟩ fun r => ∀ c : Dev nD,
      r.2.mem ((c.tc : Thread nD τ).loc main_v34) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨((h c).2 main_v34 (Pipeline.mem_restRefs_of main_v34 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelResult

end
-- ==== Proof.HostProjection.lean ====
/-
  The reference, read against the same two functions.

  The reference scales the feature matrix on the host — the out-degrees' inverse square roots broadcast
  first to a column and then along the 512 channels — and contracts the scaled matrix with the weights in
  ONE `dot_general`. Read at (r, c), that contraction is Σ_k (x[r, k] · d[r]) · w[k, c] with `d[r]` the inverse
  square root of node `r`'s out-degree, which is entry (r, 0) of the kernel's scale column: the reference's
  dense stage is `project` of the features, that column and the weights.

  Everything after it — gather along the edges, edge weights, scatter-sum into the destinations, the
  in-degree normalisation, the bias — is, operation for operation, `aggregate` applied to that stage.
-/
import proofs.«165281_j44298292691098_1_alg».proof.Proof.Gen.ReferenceIdeal.Read
import proofs.«165281_j44298292691098_1_alg».proof.Proof.Projection
import proofs.«165281_j44298292691098_1_alg».proof.Proof.Aggregation
import Idealize.ShloMosaic.Lib.Pipeline.Value
import Idealize.ShloMosaic.Lib.ValueIdx

noncomputable section

namespace Cert.ReferenceIdeal.HostProjection

open Cert.ReferenceIdeal Cert.ReferenceIdeal.Read Idealize.ShloMosaic Idealize.ShloMosaic.ValueIdx
open Cert.KernelIdeal.Aggregation

/-- The contraction reads the scaled features at (r, k), -/
theorem lhs_index (r : Fin 100000) (c : Fin 128) (k : Fin 512) : lidx_main_v15 (ix2 r c) k = ix2 r k :=
  funext fun a => Fin.ext (by match a with | ⟨0, _⟩ => rfl | ⟨1, _⟩ => rfl)

/-- and the weights at (k, c). -/
theorem rhs_index (r : Fin 100000) (c : Fin 128) (k : Fin 512) : ridx_main_v15 (ix2 r c) k = ix2 k c :=
  funext fun a => Fin.ext (by match a with | ⟨0, _⟩ => rfl | ⟨1, _⟩ => rfl)

/-- The two broadcasts of the per-node factor read, at (r, k), node `r`'s. -/
theorem scale_index (r : Fin 100000) (k : Fin 512) : idx_main_v12 (idx_main_v13 (ix2 r k)) = ix1 r :=
  funext fun a => Fin.ext (by match a with | ⟨0, _⟩ => rfl)

/-- The reference's per-node factor is the inverse square root of the out-degree: the same operations as `invSqrtDegree`. -/
theorem factor_eq (src : IVec S1600000 32) : val_main_v11 (F := Ideal) src = invSqrtDegree src := rfl

/-- The kernel's scale column at (r, 0) is node `r`'s factor: a reshape keeps the row-major position. -/
theorem scaleColumn_at (src : IVec S1600000 32) (r : Fin 100000) :
    scaleColumn src (ix2 r (0 : Fin 1)) = invSqrtDegree src (ix1 r) := by
  unfold scaleColumn
  exact shapeCast_apply _ _ (ix2 r (0 : Fin 1)) (ix1 r) (by
    rw [Shape.rowMajor_val_one, Shape.rowMajor_val_two]
    show r.val = r.val * 1 + 0
    omega)

/-- THE REFERENCE'S DENSE STAGE is `project` of the features, the scale column and the weights. -/
theorem dense_eq (x : FVec Ideal S100000x512 .f32) (w : FVec Ideal S512x128 .f32) (src : IVec S1600000 32) :
    val_main_v15 (F := Ideal) x w src = Projection.project x (scaleColumn src) w := by
  funext i
  obtain ⟨r, c, rfl⟩ : ∃ (r : Fin 100000) (c : Fin 128), i = ix2 r c := ⟨i 0, i 1, eq_ix2 i⟩
  rw [val_main_v15_apply, Projection.project_ix2]
  unfold Projection.entry
  refine Finset.sum_congr rfl fun k _ => ?_
  rw [lhs_index r c k, rhs_index r c k, val_main_v14_apply, val_main_v13_apply, val_main_v12_apply, scale_index r k,
    factor_eq, scaleColumn_at]
  rfl

/-- THE REFERENCE'S RESULT is `aggregate` of its dense stage. -/
theorem result_eq (x : FVec Ideal S100000x512 .f32) (w : FVec Ideal S512x128 .f32) (bias : FVec Ideal S128 .f32)
    (ew : FVec Ideal S1600000 .f32) (src dst : IVec S1600000 32) :
    val_main_v35 (F := Ideal) x w bias ew src dst = aggregate (val_main_v15 (F := Ideal) x w src) bias ew src dst := rfl

end Cert.ReferenceIdeal.HostProjection

end
-- ==== Proof.lean ====
/-
  A graph convolution with symmetric degree normalisation: the kernel's program and its reference compute
  the same array over the extended reals.

  Both programs, on 100000 nodes with 512 input and 128 output channels and 1600000 weighted edges:
    1. count each node's out- and in-degree from the edge list and clamp the counts at one;
    2. scale every node's feature row by the inverse square root of its out-degree and multiply by the
       weight matrix:  h[r, c] = Σ_k (feat[r, k] · d_out[r]) · weight[k, c];
    3. pass messages: every edge adds its source's row of `h`, times the edge weight, into its destination's
       row; every node's sum is scaled by the inverse square root of its in-degree, and the bias is added.

  They differ only in step 2. The reference scales the whole matrix on the host and contracts it in one
  matrix product. The kernel's program computes the scale column on the host and then, in 25 blocks of
  4000 nodes, multiplies each block of feature rows by its scales and contracts it with the weights
  (narrowed to bf16, which changes nothing at the ideal values) into a zero accumulator. An entry of `h`
  depends on its own node's row and scale only, so the blocks are restrictions of ONE whole-array
  function, `Projection.project`, and they tile the array: Proof/BlockProduct.lean reads one stored entry as
  the sum above, Proof/Blocks.lean goes from the blocks to the array, Proof/HostProjection.lean reads the
  reference's matrix product as the same function. The two sides multiply in the same order, so no law
  beyond the definition of a matrix product is used, and the finiteness of the inputs is never needed.

  Steps 1 and 3 are the same operations in both programs (Proof/Aggregation.lean names them, and nothing
  opens them): with equal `h` going in, the results are equal (Proof/KernelResult.lean, and below).

  The frames: each program terminates without a fault and leaves its arguments unchanged — for the two
  programs with a kernel by the generated frame certificates, for the reference by its generated run. The
  idealization rewrote no operation, so there is nothing to preserve.
-/
import proofs.«165281_j44298292691098_1_alg».proof.Defs
import proofs.«165281_j44298292691098_1_alg».proof.Proof.Gen.Kernel
import proofs.«165281_j44298292691098_1_alg».proof.Proof.Gen.Kernel.Skeleton
import proofs.«165281_j44298292691098_1_alg».proof.Proof.Gen.Kernel.Launch
import proofs.«165281_j44298292691098_1_alg».proof.Proof.Gen.Kernel.Points
import proofs.«165281_j44298292691098_1_alg».proof.Proof.Gen.Kernel.Frame
import proofs.«165281_j44298292691098_1_alg».proof.Proof.Gen.KernelIdeal
import proofs.«165281_j44298292691098_1_alg».proof.Proof.Gen.KernelIdeal.Skeleton
import proofs.«165281_j44298292691098_1_alg».proof.Proof.Gen.KernelIdeal.Launch
import proofs.«165281_j44298292691098_1_alg».proof.Proof.Gen.KernelIdeal.Points
import proofs.«165281_j44298292691098_1_alg».proof.Proof.Gen.KernelIdeal.Frame
import proofs.«165281_j44298292691098_1_alg».proof.Proof.Gen.ReferenceIdeal
import proofs.«165281_j44298292691098_1_alg».proof.Proof.Gen.ReferenceIdeal.Run
import proofs.«165281_j44298292691098_1_alg».proof.Proof.Gen.ReferenceIdeal.Read
import proofs.«165281_j44298292691098_1_alg».proof.Proof.Gen.Pre_finite_inputs
import proofs.«165281_j44298292691098_1_alg».proof.Proof.KernelResult
import proofs.«165281_j44298292691098_1_alg».proof.Proof.HostProjection
import Idealize.ShloMosaic.Adequacy
import Idealize.ShloMosaic.Init

noncomputable section

namespace Cert.Proof

open Idealize.ShloMosaic Idealize.SL.Sem

/-- The kernel's program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, the kernel's program ends at `aggregate` of `project` of its arguments,
    and so does the reference: its result is `aggregate` of its matrix product, and that product is `project`. -/
theorem algebraic : Cert.algebraic_KernelIdeal_ReferenceIdeal := by
  intro m ρ m' ρ' _ hagree
  refine ⟨fun c => Cert.KernelIdeal.KernelResult.result m c, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  refine (Cert.ReferenceIdeal.Read.val_main_v35_eq _ _ _ _ _ _).trans ?_
  rw [Cert.ReferenceIdeal.HostProjection.result_eq, Cert.ReferenceIdeal.HostProjection.dense_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
